-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x48x300 : Shape := ⟨3, ![64, 48, 300]⟩
abbrev S64x2048x300 : Shape := ⟨3, ![64, 2048, 300]⟩
abbrev S300x300 : Shape := ⟨2, ![300, 300]⟩
abbrev S300 : Shape := ⟨1, ![300]⟩
abbrev S_ : Shape := ⟨0, ![]⟩

class Facts : Prop where
  bcast_S_S64x48x300 : S_.BroadcastsInDim S64x48x300 (![] : Fin 0 → Fin S64x48x300.rank)
  reducesTo_S64x48x300_S_d0_1_2 : S64x48x300.ReducesTo [0, 1, 2] S_
  h_S_ : 0 < S_.numel
  bcast_S_S64x2048x300 : S_.BroadcastsInDim S64x2048x300 (![] : Fin 0 → Fin S64x2048x300.rank)
  reducesTo_S64x2048x300_S_d0_1_2 : S64x2048x300.ReducesTo [0, 1, 2] S_
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  main_v18

def fn {F : FTy → Type} [FloatOps F] (main_arg0 : FVec F S64x48x300 .f32) (main_arg1 : FVec F S64x2048x300 .f32) (main_arg2 : FVec F S300x300 .f32) (main_arg3 : FVec F S300 .f32) : IVec S_ 1 :=
  let main_v0 : FVec F S64x48x300 .f32 := Host.absf main_arg0
  let main_cst : FVec F S_ .f32 := constant S_ .f32 0x7F800000#32
  let main_v1 : FVec F S64x48x300 .f32 := broadcastInDim S64x48x300 ![] bcast_S_S64x48x300 main_cst
  let main_v2 : IVec S64x48x300 1 := cmpf .olt main_v0 main_v1
  let main_c : IVec S_ 1 := constantI S_ 1 1#1
  let main_v3 : IVec S_ 1 := (fun x v => Host.reduce IntOp.andi x v reducesTo_S64x48x300_S_d0_1_2 h_S_) main_v2 main_c
  let main_v4 : FVec F S64x2048x300 .f32 := Host.absf main_arg1
  let main_cst_0 : FVec F S_ .f32 := constant S_ .f32 0x7F800000#32
  let main_v5 : FVec F S64x2048x300 .f32 := broadcastInDim S64x2048x300 ![] bcast_S_S64x2048x300 main_cst_0
  let main_v6 : IVec S64x2048x300 1 := cmpf .olt main_v4 main_v5
  let main_c_1 : IVec S_ 1 := constantI S_ 1 1#1
  let main_v7 : IVec S_ 1 := (fun x v => Host.reduce IntOp.andi x v reducesTo_S64x2048x300_S_d0_1_2 h_S_) main_v6 main_c_1
  let main_v8 : IVec S_ 1 := andi main_v3 main_v7
  let main_v9 : FVec F S300x300 .f32 := Host.absf main_arg2
  let main_cst_2 : FVec F S_ .f32 := constant S_ .f32 0x7F800000#32
  let main_v10 : FVec F S300x300 .f32 := broadcastInDim S300x300 ![] bcast_S_S300x300 main_cst_2
  let main_v11 : IVec S300x300 1 := cmpf .olt main_v9 main_v10
  let main_c_3 : IVec S_ 1 := constantI S_ 1 1#1
  let main_v12 : IVec S_ 1 := (fun x v => Host.reduce IntOp.andi x v reducesTo_S300x300_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_v13 main_v16
-- ==== Kernel.lean ====
abbrev S64x48x300 : Shape := ⟨3, ![64, 48, 300]⟩
abbrev S64x2048x300 : Shape := ⟨3, ![64, 2048, 300]⟩
abbrev S300x300 : Shape := ⟨2, ![300, 300]⟩
abbrev S300 : Shape := ⟨1, ![300]⟩
abbrev S1x300 : Shape := ⟨2, ![1, 300]⟩
abbrev S1x48x300 : Shape := ⟨3, ![1, 48, 300]⟩
abbrev S1x2048x300 : Shape := ⟨3, ![1, 2048, 300]⟩
abbrev S48x300 : Shape := ⟨2, ![48, 300]⟩
abbrev S2048x300 : Shape := ⟨2, ![2048, 300]⟩
abbrev S300x48 : Shape := ⟨2, ![300, 48]⟩
abbrev S2048x48 : Shape := ⟨2, ![2048, 48]⟩
abbrev S2048 : Shape := ⟨1, ![2048]⟩
abbrev S2048x1 : Shape := ⟨2, ![2048, 1]⟩

abbrev nBuf : Space → Nat
  | .hbm => 7
  | .vmem => 8
  | .smem => 0
  | _ => 0

abbrev bufTy : (tb : Table) → Fin (tcTables nBuf tb) → BufTy
  | .hbm, ⟨0, _⟩ => ⟨S64x48x300, .f32⟩
  | .hbm, ⟨1, _⟩ => ⟨S64x2048x300, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S1x300, .f32⟩
  | .hbm, ⟨6, _⟩ => ⟨S64x2048x300, .f32⟩
  | .local _ .vmem, ⟨0, _⟩ => ⟨S1x48x300, .f32⟩
  | .local _ .vmem, ⟨1, _⟩ => ⟨S1x48x300, .f32⟩
  | .local _ .vmem, ⟨2, _⟩ => ⟨S1x2048x300, .f32⟩
  | .local _ .vmem, ⟨3, _⟩ => ⟨S1x2048x300, .f32⟩
  | .local _ .vmem, ⟨4, _⟩ => ⟨S300x300, .f32⟩
  | .local _ .vmem, ⟨5, _⟩ => ⟨S1x300, .f32⟩
  | .local _ .vmem, ⟨6, _⟩ => ⟨S1x2048x300, .f32⟩
  | .local _ .vmem, ⟨7, _⟩ => ⟨S1x2048x300, .f32⟩
  | _, _ => ⟨S64x48x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x48x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S300x300_S300x300_1_0 : S300x300.Transposes [1, 0] S300x300
  shapeCasts_S300_S1x300 : S300.ShapeCasts S1x300
  inb_S1x48x300_S1x48x300_0_0_0 : ∀ a, (![0, 0, 0] : Fin 3 → Nat) a + S1x48x300.size a ≤ S1x48x300.size a
  h_S1x48x300 : 0 < S1x48x300.numel
  shapeCasts_S1x48x300_S48x300 : S1x48x300.ShapeCasts S48x300
  inb_S1x2048x300_S1x2048x300_0_0_0 : ∀ a, (![0, 0, 0] : Fin 3 → Nat) a + S1x2048x300.size a ≤ S1x2048x300.size a
  h_S1x2048x300 : 0 < S1x2048x300.numel
  shapeCasts_S1x2048x300_S2048x300 : S1x2048x300.ShapeCasts S2048x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  bitsLt_bf16_f32 : FTy.bits .bf16 < FTy.bits .f32
  broadcasts_S1x300_S48x300 : S1x300.Broadcasts S48x300
  broadcasts_S1x300_S2048x300 : S1x300.Broadcasts S2048x300
  transposes_S48x300_p1_0_S300x48 : S48x300.Transposes [1, 0] S300x48
  reduces_S2048x48_S2048 : S2048x48.Reduces [1] S2048
  shapeCasts_S2048_S2048x1 : S2048.ShapeCasts S2048x1
  broadcasts_S2048x1_S2048x48 : S2048x1.Broadcasts S2048x48
  shapeCasts_S2048x300_S1x2048x300 : S2048x300.ShapeCasts S1x2048x300
  dot_S48x300_S300x300_S48x300_1_0_0_1_n_n_wf : DotDims.WF S48x300 S300x300 S48x300 [1] [0] [0] [1] [] []
  dot_S2048x300_S300x300_S2048x300_1_0_0_1_n_n_wf : DotDims.WF S2048x300 S300x300 S2048x300 [1] [0] [0] [1] [] []
  dot_S2048x300_S300x48_S2048x48_1_0_0_1_n_n_wf : DotDims.WF S2048x300 S300x48 S2048x48 [1] [0] [0] [1] [] []
  dot_S2048x48_S48x300_S2048x300_1_0_0_1_n_n_wf : DotDims.WF S2048x48 S48x300 S2048x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x300.size a ≤ S64x48x300.size a
  hwx0_0 : ∀ i : grid0.Coords, EltTy.bits .f32 = 32 ∨ (Rect.block (s := S64x48x300) S1x48x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x300.size a ≤ S64x2048x300.size a
  hwx0_1 : ∀ i : grid0.Coords, EltTy.bits .f32 = 32 ∨ (Rect.block (s := S64x2048x300) S1x2048x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x300.size a ≤ S300x300.size a
  hwx0_2 : ∀ i : grid0.Coords, EltTy.bits .f32 = 32 ∨ (Rect.block (s := S300x300) S300x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x300.size a ≤ S1x300.size a
  hwx0_3 : ∀ i : grid0.Coords, EltTy.bits .f32 = 32 ∨ (Rect.block (s := S1x300) S1x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x300.size a ≤ S64x2048x300.size a
  hwx0_4 : ∀ i : grid0.Coords, EltTy.bits .f32 = 32 ∨ (Rect.block (s := S64x2048x300) S1x2048x300.size (cc0_transform_4 i) (hinb0_4 i)).WholeWords (EltTy.packing .f32)

variable [Facts₀]

def dot_S48x300_S300x300_S48x300_1_0_0_1_n_n : DotDims S48x300 S300x300 S48x300 where
  lhsContracting := [1]
  rhsContracting := [0]
  lhsNonContracting := [0]
  rhsNonContracting := [1]
  lhsBatch := []
  rhsBatch := []
  wf := dot_S48x300_S300x300_S48x300_1_0_0_1_n_n_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x300_S300x48_S2048x48_1_0_0_1_n_n : DotDims S2048x300 S300x48 S2048x48 where
  lhsContracting := [1]
  rhsContracting := [0]
  lhsNonContracting := [0]
  rhsNonContracting := [1]
  lhsBatch := []
  rhsBatch := []
  wf := dot_S2048x300_S300x48_S2048x48_1_0_0_1_n_n_wf
def dot_S2048x48_S48x300_S2048x300_1_0_0_1_n_n : DotDims S2048x48 S48x300 S2048x300 where
  lhsContracting := [1]
  rhsContracting := [0]
  lhsNonContracting := [0]
  rhsNonContracting := [1]
  lhsBatch := []
  rhsBatch := []
  wf := dot_S2048x48_S48x300_S2048x300_1_0_0_1_n_n_wf

abbrev win0_0 : Pipeline.Window sig grid0 :=
  Pipeline.Window.ofSpec (Memref.whole main_arg0) S1x48x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S300x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x48x300 : Shape := ⟨3, ![64, 48, 300]⟩
abbrev S64x2048x300 : Shape := ⟨3, ![64, 2048, 300]⟩
abbrev S300x300 : Shape := ⟨2, ![300, 300]⟩
abbrev S300 : Shape := ⟨1, ![300]⟩
abbrev S1x1x300 : Shape := ⟨3, ![1, 1, 300]⟩
abbrev S_ : Shape := ⟨0, ![]⟩
abbrev S64x2048x48 : Shape := ⟨3, ![64, 2048, 48]⟩
abbrev S64x2048 : Shape := ⟨2, ![64, 2048]⟩
abbrev S64x2048x1 : Shape := ⟨3, ![64, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x48x300, .f32⟩
  | .hbm, ⟨1, _⟩ => ⟨S64x2048x300, .f32⟩
  | .hbm, ⟨2, _⟩ => ⟨S300x300, .f32⟩
  | .hbm, ⟨3, _⟩ => ⟨S300, .f32⟩
  | .hbm, ⟨4, _⟩ => ⟨S64x48x300, .f32⟩
  | .hbm, ⟨5, _⟩ => ⟨S1x1x300, .f32⟩
  | .hbm, ⟨6, _⟩ => ⟨S64x48x300, .f32⟩
  | .hbm, ⟨7, _⟩ => ⟨S64x48x300, .f32⟩
  | .hbm, ⟨8, _⟩ => ⟨S_, .f32⟩
  | .hbm, ⟨9, _⟩ => ⟨S64x48x300, .f32⟩
  | .hbm, ⟨10, _⟩ => ⟨S64x48x300, .f32⟩
  | .hbm, ⟨11, _⟩ => ⟨S64x2048x300, .f32⟩
  | .hbm, ⟨12, _⟩ => ⟨S1x1x300, .f32⟩
  | .hbm, ⟨13, _⟩ => ⟨S64x2048x300, .f32⟩
  | .hbm, ⟨14, _⟩ => ⟨S64x2048x300, .f32⟩
  | .hbm, ⟨15, _⟩ => ⟨S_, .f32⟩
  | .hbm, ⟨16, _⟩ => ⟨S64x2048x300, .f32⟩
  | .hbm, ⟨17, _⟩ => ⟨S64x2048x300, .f32⟩
  | .hbm, ⟨18, _⟩ => ⟨S64x2048x48, .f32⟩
  | .hbm, ⟨19, _⟩ => ⟨S_, .f32⟩
  | .hbm, ⟨20, _⟩ => ⟨S64x2048, .f32⟩
  | .hbm, ⟨21, _⟩ => ⟨S_, .f32⟩
  | .hbm, ⟨22, _⟩ => ⟨S64x2048, .f32⟩
  | .hbm, ⟨23, _⟩ => ⟨S64x2048, .f32⟩
  | .hbm, ⟨24, _⟩ => ⟨S64x2048x1, .f32⟩
  | .hbm, ⟨25, _⟩ => ⟨S64x2048x48, .f32⟩
  | .hbm, ⟨26, _⟩ => ⟨S64x2048x48, .f32⟩
  | .hbm, ⟨27, _⟩ => ⟨S64x2048x48, .f32⟩
  | .hbm, ⟨28, _⟩ => ⟨S_, .f32⟩
  | .hbm, ⟨29, _⟩ => ⟨S64x2048, .f32⟩
  | .hbm, ⟨30, _⟩ => ⟨S64x2048x1, .f32⟩
  | .hbm, ⟨31, _⟩ => ⟨S64x2048x48, .f32⟩
  | .hbm, ⟨32, _⟩ => ⟨S64x2048x48, .f32⟩
  | .hbm, ⟨33, _⟩ => ⟨S64x2048x300, .f32⟩
  | _, _ => ⟨S64x48x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_cst : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S300_S1x1x300_2 : S300.BroadcastsInDim S1x1x300 (![2] : Fin 1 → Fin S1x1x300.rank)
  bcast_S1x1x300_S64x48x300_0_1_2 : S1x1x300.BroadcastsInDim S64x48x300 (![0, 1, 2] : Fin 3 → Fin S64x48x300.rank)
  bcast_S_S64x48x300 : S_.BroadcastsInDim S64x48x300 (![] : Fin 0 → Fin S64x48x300.rank)
  bcast_S1x1x300_S64x2048x300_0_1_2 : S1x1x300.BroadcastsInDim S64x2048x300 (![0, 1, 2] : Fin 3 → Fin S64x2048x300.rank)
  bcast_S_S64x2048x300 : S_.BroadcastsInDim S64x2048x300 (![] : Fin 0 → Fin S64x2048x300.rank)
  reducesTo_S64x2048x48_S64x2048_d2 : S64x2048x48.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x48_0_1_2 : S64x2048x1.BroadcastsInDim S64x2048x48 (![0, 1, 2] : Fin 3 → Fin S64x2048x48.rank)
  dot_S64x48x300_S300x300_S64x48x300_2_1_01_0_n_n_wf : DotDims.WF S64x48x300 S300x300 S64x48x300 [2] [1] [0, 1] [0] [] []
  dot_S64x2048x300_S300x300_S64x2048x300_2_1_01_0_n_n_wf : DotDims.WF S64x2048x300 S300x300 S64x2048x300 [2] [1] [0, 1] [0] [] []
  dot_S64x2048x300_S64x48x300_S64x2048x48_2_2_1_1_0_0_wf : DotDims.WF S64x2048x300 S64x48x300 S64x2048x48 [2] [2] [1] [1] [0] [0]
  dot_S64x2048x48_S64x48x300_S64x2048x300_2_1_1_2_0_0_wf : DotDims.WF S64x2048x48 S64x48x300 S64x2048x300 [2] [1] [1] [2] [0] [0]

variable [Facts₀]

def dot_S64x48x300_S300x300_S64x48x300_2_1_01_0_n_n : DotDims S64x48x300 S300x300 S64x48x300 where
  lhsContracting := [2]
  rhsContracting := [1]
  lhsNonContracting := [0, 1]
  rhsNonContracting := [0]
  lhsBatch := []
  rhsBatch := []
  wf := dot_S64x48x300_S300x300_S64x48x300_2_1_01_0_n_n_wf
def dot_S64x2048x300_S300x300_S64x2048x300_2_1_01_0_n_n : DotDims S64x2048x300 S300x300 S64x2048x300 where
  lhsContracting := [2]
  rhsContracting := [1]
  lhsNonContracting := [0, 1]
  rhsNonContracting := [0]
  lhsBatch := []
  rhsBatch := []
  wf := dot_S64x2048x300_S300x300_S64x2048x300_2_1_01_0_n_n_wf
def dot_S64x2048x300_S64x48x300_S64x2048x48_2_2_1_1_0_0 : DotDims S64x2048x300 S64x48x300 S64x2048x48 where
  lhsContracting := [2]
  rhsContracting := [2]
  lhsNonContracting := [1]
  rhsNonContracting := [1]
  lhsBatch := [0]
  rhsBatch := [0]
  wf := dot_S64x2048x300_S64x48x300_S64x2048x48_2_2_1_1_0_0_wf
def dot_S64x2048x48_S64x48x300_S64x2048x300_2_1_1_2_0_0 : DotDims S64x2048x48 S64x48x300 S64x2048x300 where
  lhsContracting := [2]
  rhsContracting := [1]
  lhsNonContracting := [1]
  rhsNonContracting := [2]
  lhsBatch := [0]
  rhsBatch := [0]
  wf := dot_S64x2048x48_S64x48x300_S64x2048x300_2_1_1_2_0_0_wf

class Facts : Prop extends Facts₀ where

variable [Facts]
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibGramMatmul.lean ====
/-
  A matrix product against a transposed operand, read at coordinates.

  For x : [M, K] and y : [N, K], the plain product of x with the transpose of y (axes swapped, [K, N]) accumulated
  into the zero matrix has at (r, c) the entry  Σ_k x (r, k) · y (c, k)  on the extended reals, at any extents: the
  inner product of row r of x with row c of y. (A kernel that writes `x @ y.T` transposes the loaded block and then
  runs the plain contraction; this is that pair of operations read as one sum.)
-/
import Idealize.ShloMosaic.Lib.Pipeline.Value
import proofs.«113264_j6528350290098_1_alg».proof.Proof.LibPlainMatmul

namespace Cert.Lib.GramMatmul

open Idealize.ShloMosaic Idealize.ShloMosaic.ValueIdx

/-- The transpose of a two-axis array reads the swapped coordinates. -/
theorem swap_apply {α : Type} {N K : ℕ} (y : (⟨2, ![N, K]⟩ : Shape).Idx → α)
    (h : (⟨2, ![N, K]⟩ : Shape).Transposes [1, 0] ⟨2, ![K, N]⟩) (k : Fin K) (c : Fin N) :
    transpose ⟨2, ![K, N]⟩ [1, 0] y h (ix2 k c) = y (ix2 c k) :=
  transpose_apply [1, 0] y h (ix2 k c) (ix2 c k) (fun b => match b with
    | ⟨0, _⟩ => rfl
    | ⟨1, _⟩ => rfl)

/-- The plain product of x with the transpose of y into the zero matrix, at (r, c): Σ_k x (r, k) · y (c, k). -/
theorem gram_apply {M K N : ℕ} {φ₁ φ₂ : FTy} (x : FVec Ideal ⟨2, ![M, K]⟩ φ₁) (y : FVec Ideal ⟨2, ![N, K]⟩ φ₂)
    (h : (⟨2, ![N, K]⟩ : Shape).Transposes [1, 0] ⟨2, ![K, N]⟩) (r : Fin M) (c : Fin N) :
    FloatOps.matmul (DotDims.plain M K N) none x (transpose ⟨2, ![K, N]⟩ [1, 0] y h)
        (constant ⟨2, ![M, N]⟩ .f32 0x00000000#32) (ix2 r c)
      = ∑ k : Fin K, x (ix2 r k) * y (ix2 c k) := by
  rw [Cert.PlainMatmul.plain_apply]
  exact Finset.sum_congr rfl fun k _ => by rw [swap_apply]

end Cert.Lib.GramMatmul
-- ==== Proof.LibLayer1Layout.lean ====
/-
  Leading unit axes and row spreads, read at coordinates.

  A block `[1, a, b]` viewed as the matrix `[a, b]` reads `(p, q)` at `(0, p, q)`; a matrix `[a, b]` stored as the
  block `[1, a, b]` reads `(z, p, q)` at `(p, q)`; a row `[1, b]` spread over the `a` rows of `[a, b]` reads
  `(p, q)` at `(0, q)`.
-/
import Idealize.ShloMosaic.Lib.Pipeline.Value
import Idealize.ShloMosaic.Lib.ValueIdx

namespace Cert.Layer1Layout

open Idealize.ShloMosaic Idealize.ShloMosaic.ValueIdx

variable {α : Type} {a b : ℕ}

/-- Dropping the leading unit axis: the matrix at `(p, q)` is the block at `(0, p, q)`. -/
theorem dropLead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  rw [shapeCast_dropUnit_apply ![a, b] v h (ix2 p q)]
  refine congrArg v (funext fun d => ?_)
  match d with
  | ⟨0, _⟩ => rfl
  | ⟨1, _⟩ => rfl
  | ⟨2, _⟩ => rfl

/-- Adding a leading unit axis: the block at `(z, p, q)` is the matrix at `(p, q)`. -/
theorem addLead_apply (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) := by
  rw [shapeCast_addUnit_apply ![a, b] v h (ix3 z p q)]
  refine congrArg v (funext fun d => ?_)
  match d with
  | ⟨0, _⟩ => rfl
  | ⟨1, _⟩ => rfl

/-- A row `[1, b]` spread over the rows of `[a, b]`: the entry `(p, q)` is the row's entry `q`. -/
theorem rowSpread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) (fun d => ?_)
  match d with
  | ⟨0, _⟩ => show 0 = if (1 : ℕ) = 1 then 0 else _; rw [if_pos rfl]
  | ⟨1, _⟩ =>
    show q.val = if b = 1 then 0 else q.val
    have hq := q.isLt
    split <;> omega

end Cert.Layer1Layout
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.LibClampedRowSoftmax.lean ====
/-
  The softmax along the rows of a matrix of extended reals, with the row maximum clamped below, read at coordinates.

  A kernel that lowers a library softmax takes, for each row of an `[a, b]` matrix `S`: the row maximum (a reduction
  along the second axis from a start word), then the larger of that and a splat of the same start word, kept as a column
  `[a, 1]` and spread back to `[a, b]`; the difference and its exponential `W = exp (S - top)`; the row sums of `W`
  from zero, kept as a column and spread back; the quotient. At the entry `(r, j)` this is
      exp (S (r, j) - top) / Σ_j' exp (S (r, j') - top),
      top = max (start) (the fold of `max` from the start word's value over row `r`).
  The row may be given as a function `T` of the column coordinate (`hS`): a caller that knows each entry of row `r`
  in closed form gets the softmax of that closed form.
-/
import proofs.«113264_j6528350290098_1_alg».proof.Proof.LibColumnLayout
import proofs.«113264_j6528350290098_1_alg».proof.Proof.LibMatrixReduce

namespace Cert.ClampedRowSoftmax

open Idealize.ShloMosaic Idealize.ShloMosaic.ValueIdx

/-- The value every entry of row `T` is measured against: the start word's value or the row's maximum from it,
    whichever is larger. -/
noncomputable def top {b : ℕ} (acc : BitVec 32) (T : Fin b → EReal) : EReal :=
  max (Ideal.ofBits .f32 acc) ((Finset.univ : Finset (Fin b)).fold max (Ideal.ofBits .f32 acc) T)

/-- The softmax of the row `T` at column `j`, measured against `top`. -/
noncomputable def soft {b : ℕ} (acc : BitVec 32) (T : Fin b → EReal) (j : Fin b) : EReal :=
  Ideal.div (Ideal.exp (T j - top acc T)) (∑ j' : Fin b, Ideal.exp (T j' - top acc T))

/-- The clamped row softmax of `S`, step by step as a kernel computes it, at `(r, j)`. -/
theorem clampedRowSoftmax_apply {a b : ℕ} (S : FVec Ideal ⟨2, ![a, b]⟩ .f32) (acc : BitVec 32)
    (hred : (⟨2, ![a, b]⟩ : Shape).Reduces [1] ⟨1, ![a]⟩) (hφ : FKind.Formats .f32)
    (hmax : acc = FKind.maximumf.neutral .f32 hφ) (hadd : (0x00000000#32 : BitVec 32) = FKind.add.neutral .f32 hφ)
    (hcol : (⟨1, ![a]⟩ : Shape).ShapeCasts ⟨2, ![a, 1]⟩) (hspread : (⟨2, ![a, 1]⟩ : Shape).Broadcasts ⟨2, ![a, b]⟩)
    (r : Fin a) (T : Fin b → EReal) (hS : ∀ j, S (ix2 r j) = T j) (j : Fin b) :
    divf
        (exp (subf S (broadcastTo ⟨2, ![a, b]⟩ (shapeCast ⟨2, ![a, 1]⟩
          (maximumf (broadcast ⟨1, ![a]⟩ (Scalar.ofBits (F := Ideal) .f32 acc))
            (multiReduction .maximumf [1] ⟨1, ![a]⟩ S acc hred hφ hmax)) hcol) hspread)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (maximumf (broadcast ⟨1, ![a]⟩ (Scalar.ofBits (F := Ideal) .f32 acc))
                (multiReduction .maximumf [1] ⟨1, ![a]⟩ S acc hred hφ hmax)) hcol) hspread)))
            0x00000000#32 hred hφ hadd) hcol) hspread)
        (ix2 r j)
      = soft acc T j := by
  -- the spread-back clamped row maximum, at any column of row `r`
  have hm : ∀ j' : Fin b,
      broadcastTo ⟨2, ![a, b]⟩ (shapeCast ⟨2, ![a, 1]⟩
          (maximumf (broadcast ⟨1, ![a]⟩ (Scalar.ofBits (F := Ideal) .f32 acc))
            (multiReduction .maximumf [1] ⟨1, ![a]⟩ S acc hred hφ hmax)) hcol) hspread (ix2 r j')
        = top acc T := fun j' => by
    rw [Cert.ColumnLayout.broadcastTo_a1_ab_apply, Cert.ColumnLayout.shapeCast_a_a1_apply]
    show max (Ideal.ofBits .f32 acc) (multiReduction .maximumf [1] ⟨1, ![a]⟩ S acc hred hφ hmax (ix1 r)) = _
    rw [Cert.MatrixReduce.rowMax_apply]
    exact congrArg (fun f => max (Ideal.ofBits .f32 acc) ((Finset.univ : Finset (Fin b)).fold max (Ideal.ofBits .f32 acc) f))
      (funext hS)
  -- the weight, at any column of row `r`
  have hw : ∀ j' : Fin b,
      exp (subf S (broadcastTo ⟨2, ![a, b]⟩ (shapeCast ⟨2, ![a, 1]⟩
          (maximumf (broadcast ⟨1, ![a]⟩ (Scalar.ofBits (F := Ideal) .f32 acc))
            (multiReduction .maximumf [1] ⟨1, ![a]⟩ S acc hred hφ hmax)) hcol) hspread)) (ix2 r j')
        = Ideal.exp (T j' - top acc T) := fun j' => by
    show Ideal.exp (S (ix2 r j') - _) = _
    rw [hm j', hS j']
  show Ideal.div _ _ = _
  rw [hw j, Cert.ColumnLayout.broadcastTo_a1_ab_apply, Cert.ColumnLayout.shapeCast_a_a1_apply,
    Cert.ColumnLayout.rowSum_apply]
  exact congrArg (Ideal.div _) (Finset.sum_congr rfl fun j' _ => hw j')

end Cert.ClampedRowSoftmax
-- ==== Proof.AlignSpec.lean ====
/-
  Soft alignment of context tokens to question tokens: the function both programs compute.

  For one batch entry let `xq p` be the embedding of question token `p` (48 tokens), `xc` the embedding of one
  context token, both of 300 features, `w e k` the weight of input feature `k` in output feature `e` of a shared
  dense layer and `β e` its bias. The layer with the positive part is
      dense x e = max (Σ_k x k · w e k + β e) 0,
  the score of the context token against question token `p` is the inner product
      score p = Σ_e dense xc e · dense (xq p) e,
  the alignment weights are the softmax of the scores over the 48 question tokens (measured against the larger of
  −∞ and the running maximum from −∞, as a softmax is computed), and the aligned embedding is the weighted sum of the
  RAW question embeddings,
      attend d = Σ_p softmax(score) p · xq p d.
  `G` is that function at every (batch, context token, feature) of the argument arrays. Every sum is a finite sum on
  the extended reals, where addition is commutative and associative, so no order of summation is fixed and no
  finiteness of the entries is needed.
-/
import Idealize.ShloMosaic.Lib.ValueIdx
import Idealize.ShloMosaic.PureOps.Ideal
import proofs.«113264_j6528350290098_1_alg».proof.Proof.LibClampedRowSoftmax

noncomputable section

namespace Cert.Align

open Idealize.ShloMosaic Idealize.ShloMosaic.ValueIdx

/-- The dense layer followed by the positive part, at output feature `e`. -/
def dense (x : Fin 300 → EReal) (w : Fin 300 → Fin 300 → EReal) (β : Fin 300 → EReal) (e : Fin 300) : EReal :=
  max ((∑ k : Fin 300, x k * w e k) + β e) (Ideal.ofBits .f32 0x00000000#32)

/-- The layer's value depends only on the values of its three arguments. -/
theorem dense_congr {x x' : Fin 300 → EReal} {w w' : Fin 300 → Fin 300 → EReal} {β β' : Fin 300 → EReal}
    (hx : ∀ k, x k = x' k) (hw : ∀ e k, w e k = w' e k) (hβ : ∀ e, β e = β' e) (e : Fin 300) :
    dense x w β e = dense x' w' β' e := by
  rw [show x = x' from funext hx, show w = w' from funext fun e => funext (hw e), show β = β' from funext hβ]

/-- The score of a context token against question token `p`: the inner product of the two projected embeddings. -/
def score (xc : Fin 300 → EReal) (xq : Fin 48 → Fin 300 → EReal) (w : Fin 300 → Fin 300 → EReal)
    (β : Fin 300 → EReal) (p : Fin 48) : EReal :=
  ∑ e : Fin 300, dense xc w β e * dense (xq p) w β e

/-- The aligned embedding of a context token at feature `d`: the softmax of its scores over the question tokens,
    weighting the raw question embeddings. -/
def attend (xc : Fin 300 → EReal) (xq : Fin 48 → Fin 300 → EReal) (w : Fin 300 → Fin 300 → EReal)
    (β : Fin 300 → EReal) (d : Fin 300) : EReal :=
  ∑ p : Fin 48, Cert.ClampedRowSoftmax.soft 0xFF800000#32 (score xc xq w β) p * xq p d

/-- The aligned embedding depends only on the values of its four arguments. -/
theorem attend_congr {xc xc' : Fin 300 → EReal} {xq xq' : Fin 48 → Fin 300 → EReal} {w w' : Fin 300 → Fin 300 → EReal}
    {β β' : Fin 300 → EReal} (hc : ∀ k, xc k = xc' k) (hq : ∀ p k, xq p k = xq' p k) (hw : ∀ e k, w e k = w' e k)
    (hβ : ∀ e, β e = β' e) (d : Fin 300) : attend xc xq w β d = attend xc' xq' w' β' d := by
  rw [show xc = xc' from funext hc, show xq = xq' from funext fun p => funext (hq p),
    show w = w' from funext fun e => funext (hw e), show β = β' from funext hβ]

/-- The aligned embeddings of every context token of every batch entry, from the argument arrays: question
    embeddings `q`, context embeddings `c`, the layer's weight `W` laid [out, in] and its bias `b`. -/
def G (q : (⟨3, ![64, 48, 300]⟩ : Shape).Idx → EReal) (c : (⟨3, ![64, 2048, 300]⟩ : Shape).Idx → EReal)
    (W : (⟨2, ![300, 300]⟩ : Shape).Idx → EReal) (b : (⟨1, ![300]⟩ : Shape).Idx → EReal) :
    (⟨3, ![64, 2048, 300]⟩ : Shape).Idx → EReal := fun i =>
  attend (fun k => c (ix3 (i 0) (i 1) k)) (fun p k => q (ix3 (i 0) p k)) (fun e k => W (ix2 e k)) (fun e => b (ix1 e)) (i 2)

theorem G_apply (q : (⟨3, ![64, 48, 300]⟩ : Shape).Idx → EReal) (c : (⟨3, ![64, 2048, 300]⟩ : Shape).Idx → EReal)
    (W : (⟨2, ![300, 300]⟩ : Shape).Idx → EReal) (b : (⟨1, ![300]⟩ : Shape).Idx → EReal)
    (n : Fin 64) (r : Fin 2048) (d : Fin 300) :
    G q c W b (ix3 n r d)
      = attend (fun k => c (ix3 n r k)) (fun p k => q (ix3 n p k)) (fun e k => W (ix2 e k)) (fun e => b (ix1 e)) d := rfl

end Cert.Align

end
-- ==== Proof.KernelBody.lean ====
/-
  The kernel body at one grid point, read at an entry of its result.

  At a grid point the body holds one batch entry's question embeddings `P0` ([1, 48, 300]), its context embeddings
  `P1` ([1, 2048, 300]), the layer's weight already transposed `P2` ([in, out] = [300, 300]) and the bias as a row
  `P3` ([1, 300]). It projects both embeddings through the dense layer with the positive part, takes the inner
  products of every projected context token with every projected question token, the softmax of each context token's
  48 scores, and the sum of the raw question embeddings weighted by it. Entry (r, d) of the result is therefore
  `Cert.Align.attend` of context token `r`'s embedding, the question embeddings, the weight read transposed back and
  the bias row, at feature `d`. A change of float format is the identity on the extended reals, so the roundings on
  the way into each product disappear.
-/
import proofs.«113264_j6528350290098_1_alg».proof.Proof.Gen.KernelIdeal.Skeleton
import proofs.«113264_j6528350290098_1_alg».proof.Proof.LibPlainMatmul
import proofs.«113264_j6528350290098_1_alg».proof.Proof.LibGramMatmul
import proofs.«113264_j6528350290098_1_alg».proof.Proof.LibLayer1Layout
import proofs.«113264_j6528350290098_1_alg».proof.Proof.LibClampedRowSoftmax
import proofs.«113264_j6528350290098_1_alg».proof.Proof.AlignSpec
import Idealize.ShloMosaic.Lib.Pipeline.Value

noncomputable section

namespace Cert.KernelIdeal.Body

open Cert.KernelIdeal Cert.KernelIdeal.Gen Idealize.ShloMosaic Idealize.ShloMosaic.ValueIdx Cert.Align

/-- A dense layer with the positive part as the body computes it — the plain product of `M` rows with the weight laid
    [in, out], plus the bias row spread over the rows, against a splat of zero — at row `r`, output feature `e`. -/
theorem dense_apply {M : ℕ} (x : FVec Ideal ⟨2, ![M, 300]⟩ .bf16) (wt : FVec Ideal ⟨2, ![300, 300]⟩ .bf16)
    (bias : FVec Ideal ⟨2, ![1, 300]⟩ .f32) (hb : (⟨2, ![1, 300]⟩ : Shape).Broadcasts ⟨2, ![M, 300]⟩)
    (r : Fin M) (e : Fin 300) :
    maximumf (addf (FloatOps.matmul (DotDims.plain M 300 300) none x wt (constant ⟨2, ![M, 300]⟩ .f32 0x00000000#32))
          (broadcastTo ⟨2, ![M, 300]⟩ bias hb))
        (broadcast ⟨2, ![M, 300]⟩ (Scalar.ofBits (F := Ideal) .f32 0x00000000#32)) (ix2 r e)
      = dense (fun k => x (ix2 r k)) (fun e k => wt (ix2 k e)) (fun e => bias (ix2 (0 : Fin 1) e)) e := by
  show max (FloatOps.matmul (DotDims.plain M 300 300) none x wt (constant ⟨2, ![M, 300]⟩ .f32 0x00000000#32) (ix2 r e)
      + broadcastTo ⟨2, ![M, 300]⟩ bias hb (ix2 r e)) (Ideal.ofBits .f32 0x00000000#32) = _
  rw [Cert.PlainMatmul.plain_apply, Cert.Layer1Layout.rowSpread_apply]
  rfl

/-- The body's result at (r, d). -/
theorem body_apply (P0 : Vec Ideal S1x48x300 .f32) (P1 : Vec Ideal S1x2048x300 .f32) (P2 : Vec Ideal S300x300 .f32)
    (P3 : Vec Ideal S1x300 .f32) (r : Fin 2048) (d : Fin 300) :
    k0_pay2 (F := Ideal) P0 P1 P2 P3 (ix2 r d)
      = attend (fun k => P1 (ix3 (0 : Fin 1) r k)) (fun p k => P0 (ix3 (0 : Fin 1) p k)) (fun e k => P2 (ix2 k e))
          (fun e => P3 (ix2 (0 : Fin 1) e)) d := by
  unfold k0_pay2
  dsimp only
  -- the weighted sum of the raw question embeddings
  refine (Cert.PlainMatmul.plain_apply (M := 2048) (K := 48) (N := 300) _ _ r d).trans ?_
  unfold attend
  refine Finset.sum_congr rfl fun p _ => ?_
  refine congrArg₂ (fun a b : EReal => a * b) ?_ ?_
  · -- the alignment weight: the softmax of row r of the scores
    refine Cert.ClampedRowSoftmax.clampedRowSoftmax_apply _ 0xFF800000#32 _ _ _ _ _ _ r _ (fun j => ?_) p
    -- a score: the inner product of the two projected embeddings
    refine (Cert.Lib.GramMatmul.gram_apply (M := 2048) (K := 300) (N := 48) _ _ _ r j).trans ?_
    unfold score
    refine Finset.sum_congr rfl fun e _ => ?_
    refine congrArg₂ (fun a b : EReal => a * b) ?_ ?_
    · refine (dense_apply _ _ _ _ r e).trans ?_
      exact dense_congr (fun k => Cert.Layer1Layout.dropLead_apply P1 _ r k)
        (fun e' k => congrFun (shapeCast_self P2 _) (ix2 k e')) (fun e' => congrFun (shapeCast_self P3 _) (ix2 (0 : Fin 1) e')) e
    · refine (dense_apply _ _ _ _ j e).trans ?_
      exact dense_congr (fun k => Cert.Layer1Layout.dropLead_apply P0 _ j k)
        (fun e' k => congrFun (shapeCast_self P2 _) (ix2 k e')) (fun e' => congrFun (shapeCast_self P3 _) (ix2 (0 : Fin 1) e')) e
  · exact Cert.Layer1Layout.dropLead_apply P0 _ p d

end Cert.KernelIdeal.Body

end
-- ==== Proof.KernelValue.lean ====
/-
  From the blocks to the whole result array.

  The grid has one point per batch entry. At point `t` the question window holds batch entry `t` of the question
  embeddings, the context window batch entry `t` of the context embeddings, the weight window the whole transposed
  weight and the bias window the whole bias row (both written by the host before the launch: the transpose of the
  weight argument, the bias argument laid as one row); the output window's block is batch entry `t` of the result.
  Entry (r, d) of what the body leaves there is `Cert.Align.attend` of that batch entry's data (the body read at an
  entry), which is entry (t, r, d) of `Cert.Align.G` of the argument arrays. The 64 blocks tile the result array, so
  after the run the array is `G`.
-/
import proofs.«113264_j6528350290098_1_alg».proof.Proof.Gen.KernelIdeal.Value
import proofs.«113264_j6528350290098_1_alg».proof.Proof.KernelBody
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.Align
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The weight window's array when the region is entered: the transpose of the weight argument. -/
theorem V_weight (c : Dev nD) : (V m c main_v0 : S300x300.Idx → EReal)
    = transpose S300x300 [1, 0] (m ((c : Thread nD τ).loc main_arg2)) transposes_S300x300_S300x300_1_0 := by
  dsimp only [Gen.V, Gen.hostOps0]; after_results

/-- The bias window's array when the region is entered: the bias argument laid as one row. -/
theorem V_bias (c : Dev nD) : (V m c main_v1 : S1x300.Idx → EReal)
    = shapeCast S1x300 (m ((c : Thread nD τ).loc main_arg3)) shapeCasts_S300_S1x300 := by
  dsimp only [Gen.V, Gen.hostOps0]; after_results; rfl

/-- The printed index maps, decided over the grid: the question, context and output windows move along the batch
    axis with the grid point, the weight and bias windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The question window's block at point `t` is batch entry `t` of the question embeddings. -/
theorem questions_apply (c : Dev nD) (t : Fin cfg0.N) (x : S1x48x300.Idx) (k : S64x48x300.Idx)
    (hk0 : (k 0).val = t.val) (hk1 : (k 1).val = (x 1).val) (hk2 : (k 2).val = (x 2).val) :
    (iblk m c 0 t : Vec Ideal S1x48x300 .f32) x = (m ((c : Thread nD τ).loc main_arg0) : S64x48x300.Idx → EReal) k := by
  obtain ⟨e0, e1, e2, -⟩ := idx_facts t
  have hx0 : (x 0).val < 1 := (x 0).isLt
  unfold iblk
  rw [View.read_apply]
  show V m c main_arg0 _ = m (c.tc.loc main_arg0) _
  refine (congrFun (V_main_arg0 m c) _).trans (congrArg _ (funext fun a => Fin.ext ?_))
  match a with
  | ⟨0, _⟩ => show win0_0.index t (0 : Fin 3) * 1 + 1 * (x 0).val = (k 0).val; omega
  | ⟨1, _⟩ => show win0_0.index t (1 : Fin 3) * 48 + 1 * (x 1).val = (k 1).val; omega
  | ⟨2, _⟩ => show win0_0.index t (2 : Fin 3) * 300 + 1 * (x 2).val = (k 2).val; omega

/-- The context window's block at point `t` is batch entry `t` of the context embeddings. -/
theorem contexts_apply (c : Dev nD) (t : Fin cfg0.N) (x : S1x2048x300.Idx) (k : S64x2048x300.Idx)
    (hk0 : (k 0).val = t.val) (hk1 : (k 1).val = (x 1).val) (hk2 : (k 2).val = (x 2).val) :
    (iblk m c 1 t : Vec Ideal S1x2048x300 .f32) x = (m ((c : Thread nD τ).loc main_arg1) : S64x2048x300.Idx → EReal) k := by
  obtain ⟨-, -, -, e0, e1, e2, -⟩ := idx_facts t
  have hx0 : (x 0).val < 1 := (x 0).isLt
  unfold iblk
  rw [View.read_apply]
  show V m c main_arg1 _ = m (c.tc.loc main_arg1) _
  refine (congrFun (V_main_arg1 m c) _).trans (congrArg _ (funext fun a => Fin.ext ?_))
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 300 + 1 * (x 2).val = (k 2).val; omega

/-- The weight window's block at any point, at (k, e), is the weight argument at (e, k). -/
theorem weight_apply (c : Dev nD) (t : Fin cfg0.N) (k e : Fin 300) :
    (iblk m c 2 t : Vec Ideal S300x300 .f32) (ix2 k e) = (m ((c : Thread nD τ).loc main_arg2) : S300x300.Idx → EReal) (ix2 e k) := by
  obtain ⟨-, -, -, -, -, -, e0, e1, -⟩ := idx_facts t
  unfold iblk
  rw [View.read_apply]
  show V m c main_v0 _ = m (c.tc.loc main_arg2) _
  refine (congrFun (V_weight m c) _).trans ?_
  refine transpose_apply [1, 0] _ _ _ (ix2 e k) fun b => ?_
  match b with
  | ⟨0, _⟩ => show k.val = win0_2.index t (0 : Fin 2) * 300 + 1 * k.val; omega
  | ⟨1, _⟩ => show e.val = win0_2.index t (1 : Fin 2) * 300 + 1 * e.val; omega

/-- The bias window's block at any point, at (0, e), is the bias argument at e. -/
theorem bias_apply (c : Dev nD) (t : Fin cfg0.N) (e : Fin 300) :
    (iblk m c 3 t : Vec Ideal S1x300 .f32) (ix2 (0 : Fin 1) e) = (m ((c : Thread nD τ).loc main_arg3) : S300.Idx → EReal) (ix1 e) := by
  obtain ⟨-, -, -, -, -, -, -, -, e0, e1, -⟩ := idx_facts t
  unfold iblk
  rw [View.read_apply]
  show V m c main_v1 _ = m (c.tc.loc main_arg3) _
  refine (congrFun (V_bias m c) _).trans ?_
  refine shapeCast_apply _ _ _ (ix1 e) ?_
  rw [Shape.rowMajor_val_one, Shape.rowMajor_val_two]
  show e.val = (win0_3.index t (0 : Fin 2) * 1 + 1 * 0) * 300 + (win0_3.index t (1 : Fin 2) * 300 + 1 * e.val)
  omega

/-- What the body leaves in the output block, for any contents of the four input blocks that are batch entry `n`'s
    question and context embeddings, the transposed weight and the bias row: at the block entry `y`, the aligned
    embedding `G` at the array entry `i` above it. -/
theorem point_eq (x0 : Vec Ideal S1x48x300 .f32) (x1 : Vec Ideal S1x2048x300 .f32) (x2 : Vec Ideal S300x300 .f32)
    (x3 : Vec Ideal S1x300 .f32) (q : S64x48x300.Idx → EReal) (cc : S64x2048x300.Idx → EReal)
    (W : S300x300.Idx → EReal) (b : S300.Idx → EReal) (n : Fin 64)
    (h0 : ∀ (p : Fin 48) (k : Fin 300), x0 (ix3 (0 : Fin 1) p k) = q (ix3 n p k))
    (h1 : ∀ (r : Fin 2048) (k : Fin 300), x1 (ix3 (0 : Fin 1) r k) = cc (ix3 n r k))
    (h2 : ∀ k e : Fin 300, x2 (ix2 k e) = W (ix2 e k))
    (h3 : ∀ e : Fin 300, x3 (ix2 (0 : Fin 1) e) = b (ix1 e))
    (y : S1x2048x300.Idx) (i : S64x2048x300.Idx) (hi0 : (i 0).val = n.val) (hi1 : (i 1).val = (y 1).val)
    (hi2 : (i 2).val = (y 2).val) :
    out0_4 x0 x1 x2 x3 y = G q cc W b i := by
  unfold out0_4
  simp only [View.ld_unit_zero (S := S1x48x300) hz3, View.ld_unit_zero (S := S1x2048x300) hz3,
    View.ld_unit_zero (S := S300x300) hz2, View.ld_unit_zero (S := S1x300) hz2]
  rw [Value.canon4_eq]
  show k0_pay2 x0 x1 x2 x3 (ix4_0 y) = _
  have hy : ix4_0 y = ix2 (⟨(y 1).val, (y 1).isLt⟩ : Fin 2048) (⟨(y 2).val, (y 2).isLt⟩ : Fin 300) :=
    funext fun a => Fin.ext (by match a with | ⟨0, _⟩ => rfl | ⟨1, _⟩ => rfl)
  have hi : i = ix3 n (⟨(y 1).val, (y 1).isLt⟩ : Fin 2048) (⟨(y 2).val, (y 2).isLt⟩ : Fin 300) :=
    funext fun a => Fin.ext (by match a with | ⟨0, _⟩ => exact hi0 | ⟨1, _⟩ => exact hi1 | ⟨2, _⟩ => exact hi2)
  rw [hy, hi, Cert.KernelIdeal.Body.body_apply, G_apply]
  exact attend_congr (fun k => h1 _ k) (fun p k => h0 p k) (fun e k => h2 k e) (fun e => h3 e) _

/-- What point `t` writes back is block `t` of `G` of the argument arrays. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1))
        (m ((c : Thread nD τ).loc main_arg2)) (m ((c : Thread nD τ).loc main_arg3))) := by
  rw [Value.flushed4]
  obtain ⟨-, -, -, -, -, -, -, -, -, -, e0, e1, e2⟩ := idx_facts t
  have hN : cfg0.N = 64 := N_0
  have ht : t.val < 64 := by have := t.isLt; omega
  funext y
  have hy0 : (y 0).val < 1 := (y 0).isLt
  show out0_4 (iblk m c 0 t) (iblk m c 1 t) (iblk m c 2 t) (iblk m c 3 t) y
    = G (m ((c : Thread nD τ).loc main_arg0)) (m ((c : Thread nD τ).loc main_arg1))
        (m ((c : Thread nD τ).loc main_arg2)) (m ((c : Thread nD τ).loc main_arg3)) (((cfg0.win 4).blk t).view.emb y)
  refine point_eq (iblk m c 0 t) (iblk m c 1 t) (iblk m c 2 t) (iblk m c 3 t) _ _ _ _ (⟨t.val, ht⟩ : Fin 64)
    (fun p k => questions_apply m c t _ _ rfl rfl rfl) (fun r k => contexts_apply m c t _ _ rfl rfl rfl)
    (fun k e => weight_apply m c t k e) (fun e => bias_apply m c t e) y _ ?_ ?_ ?_
  · show win0_4.index t (0 : Fin 3) * 1 + 1 * (y 0).val = t.val; omega
  · show win0_4.index t (1 : Fin 3) * 2048 + 1 * (y 1).val = (y 1).val; omega
  · show win0_4.index t (2 : Fin 3) * 300 + 1 * (y 2).val = (y 2).val; omega

/-- An index of the result array is in point `t`'s block iff each coordinate is in the block's range on its axis. -/
theorem mem_blk (t : Fin cfg0.N) (i : S64x2048x300.Idx) :
    i ∈ ((cfg0.win 4).blk t).view.set ↔ ∀ a : Fin 3, win0_4.index t a * S1x2048x300.size a ≤ (i a).val
      ∧ (i a).val < win0_4.index t a * S1x2048x300.size a + S1x2048x300.size a := by
  show i ∈ ((View.whole main_v2).slice (win0_4.rect t)).set ↔ _
  rw [View.set_slice_whole, Rect.mem_set_unit]
  exact Iff.rfl

/-- The 64 blocks cover the result array: entry (n, r, d) is in the block of point `n`. -/
theorem cover (i : S64x2048x300.Idx) :
    ∃ t : Fin cfg0.N, (cfg0.win 4).flush t = true ∧ i ∈ ((cfg0.win 4).blk t).view.set := by
  have hN : cfg0.N = 64 := N_0
  have hi0 : (i 0).val < 64 := (i 0).isLt
  have hi1 : (i 1).val < 2048 := (i 1).isLt
  have hi2 : (i 2).val < 300 := (i 2).isLt
  obtain ⟨t, ht⟩ : ∃ t : Fin cfg0.N, t.val = (i 0).val := ⟨⟨(i 0).val, by omega⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 300 ≤ (i 2).val ∧ (i 2).val < win0_4.index t (2 : Fin 3) * 300 + 300; omega

/-- After the run the result array is `G` of the argument arrays. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: every weakly fair execution terminates, the result array at `G` of the argument arrays, the
    arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibLastAxisMax.lean ====
/-
  The host's maximum along the last axis of a three-axis array, read at coordinates.

  A one-operand reduce with a maximum body over the last axis of an `[a, b, n]` array of extended reals, from the one
  element of an initial-value array, is at `(i, j)` the running maximum, from that initial value, of the entries
  `(i, j, k)` over all `k`. The running maximum over a finite index set does not depend on the order in which the
  entries are met, so it is written as a fold of `max` over the whole of `Fin n`. At any extents. (This is the shape
  of a softmax's row maximum over the last axis of batched scores.)
-/
import Idealize.ShloMosaic.Lib.ValueIdx
import Idealize.ShloMosaic.PureOps.Reduce
import Idealize.ShloMosaic.PureOps.Ideal.Laws

namespace Cert.LastAxisMax

open Idealize.ShloMosaic Idealize.ShloMosaic.ValueIdx

/-- The maximum along the last axis of an `[a, b, n]` array, from the initial value, at `(i, j)`: the fold of `max`
    from that value over the entries `(i, j, k)`. -/
theorem hostMax_last_apply {a b n : ℕ} {u : Shape} (x : (⟨3, ![a, b, n]⟩ : Shape).Idx → Ideal .f32)
    (init : u.Idx → Ideal .f32) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce FloatOps.maximumf x init h' hu (ix2 i j)
      = (Finset.univ : Finset (Fin n)).fold max (init (Shape.Idx.first hu)) (fun k => x (ix3 i j k)) := by
  refine (Host.reduce_eq_fold_single (α := Ideal .f32) FloatOps.maximumf x init h' h hu (ix2 i j)).trans ?_
  show (Finset.univ : Finset (Fin n)).fold max (init (Shape.Idx.first hu)) (x ∘ h.lift (ix2 i j)) = _
  refine congrArg (fun f => (Finset.univ : Finset (Fin n)).fold max (init (Shape.Idx.first hu)) f)
    (funext fun k => congrArg x (funext fun c => Fin.ext ?_))
  match c with
  | ⟨0, _⟩ => rfl
  | ⟨1, _⟩ => rfl
  | ⟨2, _⟩ => rfl

end Cert.LastAxisMax
-- ==== Proof.RefValue.lean ====
/-
  The reference program read at an entry of its result.

  The reference projects the question and the context embeddings of every batch entry through the dense layer
  (a contraction with the weight on its input axis, plus the bias spread over batch and tokens, against zero), takes
  for every batch entry the inner products of projected context tokens with projected question tokens, the softmax of
  the scores along the question axis — the maximum from −∞ against a splat of −∞, the difference, its exponential,
  the sum from zero, the quotient —, and contracts the weights with the raw question embeddings. Read stage by stage
  at the entry (n, r, d), that is `Cert.Align.attend` of batch entry `n`'s data: the function `Cert.Align.G`.
-/
import proofs.«113264_j6528350290098_1_alg».proof.Proof.Gen.ReferenceIdeal.Read
import proofs.«113264_j6528350290098_1_alg».proof.Proof.AlignSpec
import proofs.«113264_j6528350290098_1_alg».proof.Proof.LibLastAxisMax

noncomputable section

namespace Cert.ReferenceIdeal.Entry

open Cert.ReferenceIdeal Cert.ReferenceIdeal.Gen Cert.ReferenceIdeal.Read Idealize.ShloMosaic Idealize.ShloMosaic.ValueIdx
open Cert.Align Cert.ClampedRowSoftmax

variable (x0 : (⟨S64x48x300, .f32⟩ : BufTy).Contents (Elt Ideal)) (x1 : (⟨S64x2048x300, .f32⟩ : BufTy).Contents (Elt Ideal))
  (x2 : (⟨S300x300, .f32⟩ : BufTy).Contents (Elt Ideal)) (x3 : (⟨S300, .f32⟩ : BufTy).Contents (Elt Ideal))

/-! ## The stages' index maps at coordinates -/

theorem l0 (n : Fin 64) (p : Fin 48) (e k : Fin 300) : lidx_main_v0 (ix3 n p e) k = ix3 n p k :=
  funext fun a => Fin.ext (by match a with | ⟨0, _⟩ => rfl | ⟨1, _⟩ => rfl | ⟨2, _⟩ => rfl)
theorem r0 (n : Fin 64) (p : Fin 48) (e k : Fin 300) : ridx_main_v0 (ix3 n p e) k = ix2 e k :=
  funext fun a => Fin.ext (by match a with | ⟨0, _⟩ => rfl | ⟨1, _⟩ => rfl)
theorem b0 (n : Fin 64) (p : Fin 48) (e : Fin 300) : idx_main_v1 (idx_main_v2 (ix3 n p e)) = ix1 e :=
  funext fun a => Fin.ext (by match a with | ⟨0, _⟩ => rfl)
theorem l5 (n : Fin 64) (r : Fin 2048) (e k : Fin 300) : lidx_main_v5 (ix3 n r e) k = ix3 n r k :=
  funext fun a => Fin.ext (by match a with | ⟨0, _⟩ => rfl | ⟨1, _⟩ => rfl | ⟨2, _⟩ => rfl)
theorem r5 (n : Fin 64) (r : Fin 2048) (e k : Fin 300) : ridx_main_v5 (ix3 n r e) k = ix2 e k :=
  funext fun a => Fin.ext (by match a with | ⟨0, _⟩ => rfl | ⟨1, _⟩ => rfl)
theorem b5 (n : Fin 64) (r : Fin 2048) (e : Fin 300) : idx_main_v6 (idx_main_v7 (ix3 n r e)) = ix1 e :=
  funext fun a => Fin.ext (by match a with | ⟨0, _⟩ => rfl)
theorem l10 (n : Fin 64) (r : Fin 2048) (p : Fin 48) (e : Fin 300) : lidx_main_v10 (ix3 n r p) e = ix3 n r e :=
  funext fun a => Fin.ext (by match a with | ⟨0, _⟩ => rfl | ⟨1, _⟩ => rfl | ⟨2, _⟩ => rfl)
theorem r10 (n : Fin 64) (r : Fin 2048) (p : Fin 48) (e : Fin 300) : ridx_main_v10 (ix3 n r p) e = ix3 n p e :=
  funext fun a => Fin.ext (by match a with | ⟨0, _⟩ => rfl | ⟨1, _⟩ => rfl | ⟨2, _⟩ => rfl)
theorem c15 (n : Fin 64) (r : Fin 2048) (p : Fin 48) : idx_main_v14 (idx_main_v15 (ix3 n r p)) = ix2 n r :=
  funext fun a => Fin.ext (by match a with | ⟨0, _⟩ => rfl | ⟨1, _⟩ => rfl)
theorem s18 (n : Fin 64) (r : Fin 2048) (p : Fin 48) : idx_main_v18 (ix2 n r) p = ix3 n r p :=
  funext fun a => Fin.ext (by match a with | ⟨0, _⟩ => rfl | ⟨1, _⟩ => rfl | ⟨2, _⟩ => rfl)
theorem c20 (n : Fin 64) (r : Fin 2048) (p : Fin 48) : idx_main_v19 (idx_main_v20 (ix3 n r p)) = ix2 n r :=
  funext fun a => Fin.ext (by match a with | ⟨0, _⟩ => rfl | ⟨1, _⟩ => rfl)
theorem l22 (n : Fin 64) (r : Fin 2048) (d : Fin 300) (p : Fin 48) : lidx_main_v22 (ix3 n r d) p = ix3 n r p :=
  funext fun a => Fin.ext (by match a with | ⟨0, _⟩ => rfl | ⟨1, _⟩ => rfl | ⟨2, _⟩ => rfl)
theorem r22 (n : Fin 64) (r : Fin 2048) (d : Fin 300) (p : Fin 48) : ridx_main_v22 (ix3 n r d) p = ix3 n p d :=
  funext fun a => Fin.ext (by match a with | ⟨0, _⟩ => rfl | ⟨1, _⟩ => rfl | ⟨2, _⟩ => rfl)

/-! ## The stages at an entry -/

/-- The projected question embeddings at (n, p, e). -/
theorem qdense_apply (n : Fin 64) (p : Fin 48) (e : Fin 300) :
    val_main_v4 (F := Ideal) x0 x2 x3 (ix3 n p e)
      = dense (fun k => x0 (ix3 n p k)) (fun e k => x2 (ix2 e k)) (fun e => x3 (ix1 e)) e := by
  rw [val_main_v4_apply, val_main_v3_apply, val_main_v0_apply, val_main_v2_apply, val_main_v1_apply,
    val_main_call0_v0_apply, val_main_call0_cst_apply, b0]
  simp only [l0, r0]
  rfl

/-- The projected context embeddings at (n, r, e). -/
theorem cdense_apply (n : Fin 64) (r : Fin 2048) (e : Fin 300) :
    val_main_v9 (F := Ideal) x1 x2 x3 (ix3 n r e)
      = dense (fun k => x1 (ix3 n r k)) (fun e k => x2 (ix2 e k)) (fun e => x3 (ix1 e)) e := by
  rw [val_main_v9_apply, val_main_v8_apply, val_main_v5_apply, val_main_v7_apply, val_main_v6_apply,
    val_main_call1_v0_apply, val_main_call1_cst_apply, b5]
  simp only [l5, r5]
  rfl

/-- The scores at (n, r, p). -/
theorem score_apply (n : Fin 64) (r : Fin 2048) (p : Fin 48) :
    val_main_v10 (F := Ideal) x0 x1 x2 x3 (ix3 n r p)
      = score (fun k => x1 (ix3 n r k)) (fun p k => x0 (ix3 n p k)) (fun e k => x2 (ix2 e k)) (fun e => x3 (ix1 e)) p := by
  rw [val_main_v10_apply]
  unfold score
  refine Finset.sum_congr rfl fun e _ => ?_
  rw [l10, r10, cdense_apply, qdense_apply]

/-- The host's maximum along the question axis from −∞, at (n, r): the running maximum of row (n, r) of the scores. -/
theorem rowmax_apply (n : Fin 64) (r : Fin 2048) :
    val_main_v11 (F := Ideal) x0 x1 x2 x3 (ix2 n r)
      = (Finset.univ : Finset (Fin 48)).fold max (Ideal.ofBits .f32 0xFF800000#32)
          (fun p => val_main_v10 (F := Ideal) x0 x1 x2 x3 (ix3 n r p)) := by
  unfold val_main_v11
  generalize val_main_v10 (F := Ideal) x0 x1 x2 x3 = y
  exact Cert.LastAxisMax.hostMax_last_apply y (val_main_cst (F := Ideal)) reducesTo_S64x2048x48_S64x2048_d2
    (by decide) h_S_ n r

/-- The value the scores of row (n, r) are measured against. -/
theorem top_apply (n : Fin 64) (r : Fin 2048) :
    val_main_v13 (F := Ideal) x0 x1 x2 x3 (ix2 n r)
      = top 0xFF800000#32 (score (fun k => x1 (ix3 n r k)) (fun p k => x0 (ix3 n p k)) (fun e k => x2 (ix2 e k))
          (fun e => x3 (ix1 e))) := by
  rw [val_main_v13_apply, val_main_v12_apply, val_main_cst_0_apply, rowmax_apply]
  unfold top
  show max (Ideal.ofBits .f32 0xFF800000#32) _ = _
  exact congrArg (fun f => max (Ideal.ofBits .f32 0xFF800000#32)
    ((Finset.univ : Finset (Fin 48)).fold max (Ideal.ofBits .f32 0xFF800000#32) f))
    (funext fun p => score_apply x0 x1 x2 x3 n r p)

/-- The exponential of a score's distance to that value, at (n, r, p). -/
theorem weight_apply (n : Fin 64) (r : Fin 2048) (p : Fin 48) :
    val_main_v17 (F := Ideal) x0 x1 x2 x3 (ix3 n r p)
      = Ideal.exp (score (fun k => x1 (ix3 n r k)) (fun p k => x0 (ix3 n p k)) (fun e k => x2 (ix2 e k)) (fun e => x3 (ix1 e)) p
          - top 0xFF800000#32 (score (fun k => x1 (ix3 n r k)) (fun p k => x0 (ix3 n p k)) (fun e k => x2 (ix2 e k))
              (fun e => x3 (ix1 e)))) := by
  rw [val_main_v17_apply, val_main_v16_apply, val_main_v15_apply, val_main_v14_apply, c15, top_apply, score_apply]
  rfl

/-- The alignment weights at (n, r, p): the softmax of row (n, r) of the scores. -/
theorem soft_apply (n : Fin 64) (r : Fin 2048) (p : Fin 48) :
    val_main_v21 (F := Ideal) x0 x1 x2 x3 (ix3 n r p)
      = soft 0xFF800000#32 (score (fun k => x1 (ix3 n r k)) (fun p k => x0 (ix3 n p k)) (fun e k => x2 (ix2 e k))
          (fun e => x3 (ix1 e))) p := by
  rw [val_main_v21_apply, val_main_v20_apply, val_main_v19_apply, c20, val_main_v18_apply, val_main_cst_1_apply,
    weight_apply]
  unfold soft
  show Ideal.div _ (Ideal.ofBits .f32 0x00000000#32 + _) = _
  rw [Ideal.ofBits_zero_f32, zero_add]
  refine congrArg (Ideal.div _) (Finset.sum_congr rfl fun p' _ => ?_)
  rw [s18, weight_apply]

/-- The reference's result is `G` of its arguments. -/
theorem result_eq : val_main_v22 (F := Ideal) x0 x1 x2 x3 = G x0 x1 x2 x3 := by
  funext i
  obtain ⟨n, r, d, rfl⟩ : ∃ (n : Fin 64) (r : Fin 2048) (d : Fin 300), i = ix3 n r d := ⟨i 0, i 1, i 2, eq_ix3 i⟩
  rw [val_main_v22_apply, G_apply]
  unfold attend
  refine Finset.sum_congr rfl fun p _ => ?_
  rw [l22, r22, soft_apply]

end Cert.ReferenceIdeal.Entry

end
-- ==== Proof.lean ====
/-
  Soft alignment of context tokens to question tokens: the kernel and its jnp reference compute one function on the
  extended reals.

  Both programs take question embeddings q : [64, 48, 300], context embeddings c : [64, 2048, 300], a dense layer's
  weight W : [300, 300] laid [out, in] and its bias b : [300]. For every batch entry they project both embeddings
  through the layer with the positive part, score every context token against every question token by the inner
  product of the projections, turn each context token's 48 scores into weights by a softmax, and return the sum of
  the raw question embeddings under those weights: `Cert.Align.G` (Proof/AlignSpec.lean).

  The kernel runs one grid point per batch entry on blocks that are that entry's slices of q and c, the weight
  transposed beforehand and the bias laid as a row; its matrix products, its row maximum and row sum read at an entry
  are finite sums and a running maximum over the same index sets as the reference's contractions and reductions
  (Proof/KernelBody.lean, Proof/KernelValue.lean, Proof/RefValue.lean). A change of float format is the identity on the
  extended reals, and a finite sum there does not depend on its order, so the two results are equal entry by entry
  with no hypothesis on the entries: the precondition is not used. The kernel's idealization is its own text read on
  the extended reals, so `preserves` has no conjunct.
-/
import proofs.«113264_j6528350290098_1_alg».proof.Defs
import proofs.«113264_j6528350290098_1_alg».proof.Proof.Gen.Kernel
import proofs.«113264_j6528350290098_1_alg».proof.Proof.Gen.Kernel.Frame
import proofs.«113264_j6528350290098_1_alg».proof.Proof.Gen.KernelIdeal
import proofs.«113264_j6528350290098_1_alg».proof.Proof.Gen.KernelIdeal.Frame
import proofs.«113264_j6528350290098_1_alg».proof.Proof.Gen.KernelIdeal.Value
import proofs.«113264_j6528350290098_1_alg».proof.Proof.Gen.ReferenceIdeal
import proofs.«113264_j6528350290098_1_alg».proof.Proof.Gen.ReferenceIdeal.Run
import proofs.«113264_j6528350290098_1_alg».proof.Proof.Gen.ReferenceIdeal.Read
import proofs.«113264_j6528350290098_1_alg».proof.Proof.Gen.Pre_finite_inputs
import proofs.«113264_j6528350290098_1_alg».proof.Proof.KernelValue
import proofs.«113264_j6528350290098_1_alg».proof.Proof.RefValue

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten, and there is nothing to preserve. -/
theorem preserves : Cert.preserves_Kernel_KernelIdeal := trivial

/-- From memories agreeing on the arguments both programs end with the result array at `Cert.Align.G` of the
    arguments: the kernel block by block, the reference stage by stage. -/
theorem algebraic : Cert.algebraic_KernelIdeal_ReferenceIdeal := by
  intro m ρ m' ρ' _ hagree
  refine ⟨fun c => Cert.Align.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Entry.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
